-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x9x128 : Shape := ⟨3, ![131072, 9, 128]⟩
abbrev S128x1024 : Shape := ⟨2, ![128, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S131072 : Shape := ⟨1, ![131072]⟩
abbrev S2048 : Shape := ⟨1, ![2048]⟩
abbrev S_ : Shape := ⟨0, ![]⟩

class Facts : Prop where
  bcast_S_S131072x9x128 : S_.BroadcastsInDim S131072x9x128 (![] : Fin 0 → Fin S131072x9x128.rank)
  reducesTo_S131072x9x128_S_d0_1_2 : S131072x9x128.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024 .f32) (main_arg5 : FVec F S1024x1 .f32) (main_arg6 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S131072x9x128 .f32) (main_arg1 : FVec F S128x1024 .f32) (main_arg2 : FVec F S1024 .f32) (main_arg3 : FVec F S1024x1024 .f32) (main_arg4 : FVec F S1024 .f32) (main_arg5 : FVec F S1024x1 .f32) (main_arg6 : FVec F S1 .f32) (main_arg7 : IVec S131072 32) (main_arg8 : IVec S2048 32) : IVec S_ 1 :=
  let main_v0 : FVec F S131072x9x128 .f32 := Host.absf main_arg0
  let main_cst : FVec F S_ .f32 := constant S_ .f32 0x7F800000#32
  let main_v1 : FVec F S131072x9x128 .f32 := broadcastInDim S131072x9x128 ![] bcast_S_S131072x9x128 main_cst
  let main_v2 : IVec S131072x9x128 1 := cmpf .olt main_v0 main_v1
  let main_c : IVec S_ 1 := constantI S_ 1 1#1
  let main_v3 : IVec S_ 1 := (fun x v => Host.reduce IntOp.andi x v reducesTo_S131072x9x128_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S131072x9x128 : Shape := ⟨3, ![131072, 9, 128]⟩
abbrev S128x1024 : Shape := ⟨2, ![128, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S131072 : Shape := ⟨1, ![131072]⟩
abbrev S2048 : Shape := ⟨1, ![2048]⟩
abbrev S131072x1x128 : Shape := ⟨3, ![131072, 1, 128]⟩
abbrev S131072x128 : Shape := ⟨2, ![131072, 128]⟩
abbrev S1024x128 : Shape := ⟨2, ![1024, 128]⟩
abbrev S1x1024 : Shape := ⟨2, ![1, 1024]⟩
abbrev S1x1 : Shape := ⟨2, ![1, 1]⟩
abbrev S_ : Shape := ⟨0, ![]⟩
abbrev S131072x1 : Shape := ⟨2, ![131072, 1]⟩

abbrev nBuf : Space → Nat
  | .hbm => 16
  | .vmem => 10
  | .smem => 0
  | _ => 0

abbrev bufTy : (tb : Table) → Fin (tcTables nBuf tb) → BufTy
  | .hbm, ⟨0, _⟩ => ⟨S131072x9x128, .f32⟩
  | .hbm, ⟨1, _⟩ => ⟨S128x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S131072, .i32⟩
  | .hbm, ⟨8, _⟩ => ⟨S2048, .i32⟩
  | .hbm, ⟨9, _⟩ => ⟨S131072x1x128, .f32⟩
  | .hbm, ⟨10, _⟩ => ⟨S131072x128, .f32⟩
  | .hbm, ⟨11, _⟩ => ⟨S131072, .f32⟩
  | .hbm, ⟨12, _⟩ => ⟨S_, .f32⟩
  | .hbm, ⟨13, _⟩ => ⟨S2048, .f32⟩
  | .hbm, ⟨14, _⟩ => ⟨S131072x1, .i32⟩
  | .hbm, ⟨15, _⟩ => ⟨S2048, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S1024, .f32⟩
  | .local _ .vmem, ⟨4, _⟩ => ⟨S1024x1024, .f32⟩
  | .local _ .vmem, ⟨5, _⟩ => ⟨S1024, .f32⟩
  | .local _ .vmem, ⟨6, _⟩ => ⟨S1024x1, .f32⟩
  | .local _ .vmem, ⟨7, _⟩ => ⟨S1, .f32⟩
  | .local _ .vmem, ⟨8, _⟩ => ⟨S1024, .f32⟩
  | .local _ .vmem, ⟨9, _⟩ => ⟨S1024, .f32⟩
  | _, _ => ⟨S131072x9x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S131072x9x128_S131072x1x128_0_0_0 : S131072x9x128.Slices ![0, 0, 0] S131072x1x128
  shapeCasts_S131072x1x128_S131072x128 : S131072x1x128.ShapeCasts S131072x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  shapeCasts_S1024x1_S1024 : S1024x1.ShapeCasts S1024
  bcast_S_S2048 : S_.BroadcastsInDim S2048 (![] : Fin 0 → Fin S2048.rank)
  bcast_S131072_S131072x1_0 : S131072.BroadcastsInDim S131072x1 (![0] : Fin 1 → Fin S131072x1.rank)
  dot_S1024x128_S128x1024_S1024x1024_1_0_0_1_n_n_wf : DotDims.WF S1024x128 S128x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  scatter_S2048_S131072x1_S131072_n_0_0_1_wf : ScatterDims.WF S2048 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .f32 = 32 ∨ (Rect.block (s := S1024x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S131072.size a
  hwx0_7 : ∀ i : grid0.Coords, EltTy.bits .f32 = 32 ∨ (Rect.block (s := S131072) S1024.size (cc0_transform_7 i) (hinb0_7 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def scatter_S2048_S131072x1_S131072_n_0_0_1 : ScatterDims S2048 S131072x1 S131072 where
  updateWindowDims := []
  insertedWindowDims := [0]
  scatterDimsToOperandDims := [0]
  indexVectorDim := 1
  wf := scatter_S2048_S131072x1_S131072_n_0_0_1_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x9x128 : Shape := ⟨3, ![131072, 9, 128]⟩
abbrev S128x1024 : Shape := ⟨2, ![128, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S131072 : Shape := ⟨1, ![131072]⟩
abbrev S2048 : Shape := ⟨1, ![2048]⟩
abbrev S131072x1x128 : Shape := ⟨3, ![131072, 1, 128]⟩
abbrev S131072x128 : Shape := ⟨2, ![131072, 128]⟩
abbrev S131072x1024 : Shape := ⟨2, ![131072, 1024]⟩
abbrev S1x1024 : Shape := ⟨2, ![1, 1024]⟩
abbrev S_ : Shape := ⟨0, ![]⟩
abbrev S131072x1 : Shape := ⟨2, ![131072, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S131072x9x128, .f32⟩
  | .hbm, ⟨1, _⟩ => ⟨S128x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S131072, .i32⟩
  | .hbm, ⟨8, _⟩ => ⟨S2048, .i32⟩
  | .hbm, ⟨9, _⟩ => ⟨S131072x1x128, .f32⟩
  | .hbm, ⟨10, _⟩ => ⟨S131072x128, .f32⟩
  | .hbm, ⟨11, _⟩ => ⟨S131072x1024, .f32⟩
  | .hbm, ⟨12, _⟩ => ⟨S1x1024, .f32⟩
  | .hbm, ⟨13, _⟩ => ⟨S131072x1024, .f32⟩
  | .hbm, ⟨14, _⟩ => ⟨S131072x1024, .f32⟩
  | .hbm, ⟨15, _⟩ => ⟨S131072x1024, .f32⟩
  | .hbm, ⟨16, _⟩ => ⟨S131072x1024, .f32⟩
  | .hbm, ⟨17, _⟩ => ⟨S_, .f32⟩
  | .hbm, ⟨18, _⟩ => ⟨S131072x1024, .f32⟩
  | .hbm, ⟨19, _⟩ => ⟨S131072x1024, .f32⟩
  | .hbm, ⟨20, _⟩ => ⟨S_, .f32⟩
  | .hbm, ⟨21, _⟩ => ⟨S131072x1024, .f32⟩
  | .hbm, ⟨22, _⟩ => ⟨S131072x1024, .f32⟩
  | .hbm, ⟨23, _⟩ => ⟨S131072x1024, .f32⟩
  | .hbm, ⟨24, _⟩ => ⟨S131072x1024, .f32⟩
  | .hbm, ⟨25, _⟩ => ⟨S1x1024, .f32⟩
  | .hbm, ⟨26, _⟩ => ⟨S131072x1024, .f32⟩
  | .hbm, ⟨27, _⟩ => ⟨S131072x1024, .f32⟩
  | .hbm, ⟨28, _⟩ => ⟨S131072x1024, .f32⟩
  | .hbm, ⟨29, _⟩ => ⟨S131072x1024, .f32⟩
  | .hbm, ⟨30, _⟩ => ⟨S_, .f32⟩
  | .hbm, ⟨31, _⟩ => ⟨S131072x1024, .f32⟩
  | .hbm, ⟨32, _⟩ => ⟨S131072x1024, .f32⟩
  | .hbm, ⟨33, _⟩ => ⟨S_, .f32⟩
  | .hbm, ⟨34, _⟩ => ⟨S131072x1024, .f32⟩
  | .hbm, ⟨35, _⟩ => ⟨S131072x1024, .f32⟩
  | .hbm, ⟨36, _⟩ => ⟨S131072x1024, .f32⟩
  | .hbm, ⟨37, _⟩ => ⟨S131072x1, .f32⟩
  | .hbm, ⟨38, _⟩ => ⟨S1x1, .f32⟩
  | .hbm, ⟨39, _⟩ => ⟨S131072x1, .f32⟩
  | .hbm, ⟨40, _⟩ => ⟨S131072x1, .f32⟩
  | .hbm, ⟨41, _⟩ => ⟨S131072, .f32⟩
  | .hbm, ⟨42, _⟩ => ⟨S_, .f32⟩
  | .hbm, ⟨43, _⟩ => ⟨S2048, .f32⟩
  | .hbm, ⟨44, _⟩ => ⟨S131072x1, .i32⟩
  | .hbm, ⟨45, _⟩ => ⟨S2048, .f32⟩
  | _, _ => ⟨S131072x9x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩

abbrev nD : Nat := 1
abbrev τ : Topo := Topo.v7x

variable {F : FTy → Type} [FloatOps F]

class Facts₀ : Prop where
  slices_S131072x9x128_S131072x1x128_0_0_0 : S131072x9x128.Slices ![0, 0, 0] S131072x1x128
  shapeCasts_S131072x1x128_S131072x128 : S131072x1x128.ShapeCasts S131072x128
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S_S2048 : S_.BroadcastsInDim S2048 (![] : Fin 0 → Fin S2048.rank)
  bcast_S131072_S131072x1_0 : S131072.BroadcastsInDim S131072x1 (![0] : Fin 1 → Fin S131072x1.rank)
  dot_S131072x128_S128x1024_S131072x1024_1_0_0_1_n_n_wf : DotDims.WF S131072x128 S128x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x1_S131072x1_1_0_0_1_n_n_wf : DotDims.WF S131072x1024 S1024x1 S131072x1 [1] [0] [0] [1] [] []
  scatter_S2048_S131072x1_S131072_n_0_0_1_wf : ScatterDims.WF S2048 S131072x1 S131072 [] [0] [0] 1

variable [Facts₀]

def dot_S131072x128_S128x1024_S131072x1024_1_0_0_1_n_n : DotDims S131072x128 S128x1024 S131072x1024 where
  lhsContracting := [1]
  rhsContracting := [0]
  lhsNonContracting := [0]
  rhsNonContracting := [1]
  lhsBatch := []
  rhsBatch := []
  wf := dot_S131072x128_S128x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf
def scatter_S2048_S131072x1_S131072_n_0_0_1 : ScatterDims S2048 S131072x1 S131072 where
  updateWindowDims := []
  insertedWindowDims := [0]
  scatterDimsToOperandDims := [0]
  indexVectorDim := 1
  wf := scatter_S2048_S131072x1_S131072_n_0_0_1_wf

class Facts : Prop extends Facts₀ where

variable [Facts]
-- ==== Proof.Energy.lean ====
/-
  The per-node energy of the three-layer perceptron, as a function of one node's feature row and the weights.

  For a feature row x ∈ (extended reals)^128, weights W1 (128×1024), W2 (1024×1024), W3 (1024 entries: the one column of the
  1024×1 matrix) and biases b1, b2 (1024 entries each) and b3 (one number):

      h1_j = silu(∑_i x_i · W1_{i j} + b1_j)        silu z = z · 1 / (1 + e^(−z))
      h2_k = silu(∑_j h1_j · W2_{j k} + b2_k)
      E    = ∑_k h2_k · W3_k + b3

  Everything is over the extended reals with the conventions of the ideal instance (the logistic function is 0 at −∞ and
  1 at +∞). Both programs compute exactly this row by row, so no algebraic law beyond unfolding is needed and the
  finiteness of the inputs is never used.
-/
import Idealize.ShloMosaic.PureOps.Ideal
import Idealize.ShloMosaic.Lib.IdealHost
import Idealize.ShloMosaic.Lib.ValueIdx

noncomputable section

namespace Cert.Energy

open Idealize.ShloMosaic Idealize.ShloMosaic.ValueIdx

/-- The sigmoid-weighted linear unit: z · logistic z. -/
def silu (z : EReal) : EReal := z * Ideal.logistic z

/-- An affine form: ∑_k h_k · w_k + b. -/
def affine {K : Nat} (h : Fin K → EReal) (w : Fin K → EReal) (b : EReal) : EReal := (∑ k : Fin K, h k * w k) + b

/-- The first hidden layer of one node. -/
def hidden1 (x : Fin 128 → EReal) (W1 : Fin 128 → Fin 1024 → EReal) (b1 : Fin 1024 → EReal) (j : Fin 1024) : EReal :=
  silu (affine x (fun i => W1 i j) (b1 j))

/-- The second hidden layer of one node. -/
def hidden2 (h1 : Fin 1024 → EReal) (W2 : Fin 1024 → Fin 1024 → EReal) (b2 : Fin 1024 → EReal) (k : Fin 1024) : EReal :=
  silu (affine h1 (fun j => W2 j k) (b2 k))

/-- One node's energy. -/
def rowEnergy (x : Fin 128 → EReal) (W1 : Fin 128 → Fin 1024 → EReal) (b1 : Fin 1024 → EReal)
    (W2 : Fin 1024 → Fin 1024 → EReal) (b2 : Fin 1024 → EReal) (W3 : Fin 1024 → EReal) (b3 : EReal) : EReal :=
  affine (hidden2 (hidden1 x W1 b1) W2 b2) W3 b3

/-- The expansion 1 / (1 + e^(−z)) with the number one spelt by its binary32 pattern is the logistic function, so
    z times it is silu z. -/
theorem silu_expanded (z : EReal) :
    z * Ideal.div (Ideal.ofBits .f32 0x3F800000#32) (Ideal.ofBits .f32 0x3F800000#32 + Ideal.exp (-z)) = silu z := by
  rw [Ideal.ofBits_one_f32]; rfl

/-- The energy depends on the feature row, the weights and the biases only through their entries. -/
theorem rowEnergy_congr {x x' : Fin 128 → EReal} {W1 W1' : Fin 128 → Fin 1024 → EReal} {b1 b1' : Fin 1024 → EReal}
    {W2 W2' : Fin 1024 → Fin 1024 → EReal} {b2 b2' : Fin 1024 → EReal} {W3 W3' : Fin 1024 → EReal} {b3 b3' : EReal}
    (hx : ∀ i, x i = x' i) (hW1 : ∀ i j, W1 i j = W1' i j) (hb1 : ∀ j, b1 j = b1' j) (hW2 : ∀ j k, W2 j k = W2' j k)
    (hb2 : ∀ k, b2 k = b2' k) (hW3 : ∀ k, W3 k = W3' k) (hb3 : b3 = b3') :
    rowEnergy x W1 b1 W2 b2 W3 b3 = rowEnergy x' W1' b1' W2' b2' W3' b3' := by
  obtain rfl : x = x' := funext hx
  obtain rfl : W1 = W1' := funext fun i => funext (hW1 i)
  obtain rfl : b1 = b1' := funext hb1
  obtain rfl : W2 = W2' := funext fun j => funext (hW2 j)
  obtain rfl : b2 = b2' := funext hb2
  obtain rfl : W3 = W3' := funext hW3
  subst hb3
  rfl

/-- The energies of all 131072 nodes: node n's is the energy of row n of the 131072×128 feature matrix X, with the weights
    and biases read from their arrays (W3 a 1024×1 matrix, b3 an array of one entry). -/
def nodeEnergy (X : (⟨2, ![131072, 128]⟩ : Shape).Idx → EReal) (W1 : (⟨2, ![128, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (W3 : (⟨2, ![1024, 1]⟩ : Shape).Idx → EReal)
    (b3 : (⟨1, ![1]⟩ : Shape).Idx → EReal) : (⟨1, ![131072]⟩ : Shape).Idx → EReal :=
  fun i => rowEnergy (fun k => X (ix2 (i 0) k)) (fun k j => W1 (ix2 k j)) (fun j => b1 (ix1 j)) (fun j k => W2 (ix2 j k))
    (fun k => b2 (ix1 k)) (fun k => W3 (ix2 k (0 : Fin 1))) (b3 (ix1 (0 : Fin 1)))

theorem nodeEnergy_apply (X : (⟨2, ![131072, 128]⟩ : Shape).Idx → EReal) (W1 : (⟨2, ![128, 1024]⟩ : Shape).Idx → EReal)
    (b1 : (⟨1, ![1024]⟩ : Shape).Idx → EReal) (W2 : (⟨2, ![1024, 1024]⟩ : Shape).Idx → EReal)
    (b2 : (⟨1, ![1024]⟩ : Shape).Idx → EReal) (W3 : (⟨2, ![1024, 1]⟩ : Shape).Idx → EReal)
    (b3 : (⟨1, ![1]⟩ : Shape).Idx → EReal) (n : Fin 131072) :
    nodeEnergy X W1 b1 W2 b2 W3 b3 (ix1 n)
      = rowEnergy (fun k => X (ix2 n k)) (fun k j => W1 (ix2 k j)) (fun j => b1 (ix1 j)) (fun j k => W2 (ix2 j k))
          (fun k => b2 (ix1 k)) (fun k => W3 (ix2 k (0 : Fin 1))) (b3 (ix1 (0 : Fin 1))) := rfl

end Cert.Energy

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KernelRow.lean ====
/-
  One grid step of the kernel, read row by row.

  At a grid step the body holds a block of 1024 feature rows X0 (1024×128) and the whole weights. Its one store writes
  the vector whose entry r is the energy of row r of the block:

      P1 = X0 · W1 + b1 (bias row broadcast over the rows)     H1 = P1 · logistic P1
      P2 = H1 · W2 + b2                                        H2 = P2 · logistic P2
      out = (H2 · W3 + b3) with the trailing unit axis dropped

  The roundings to bf16 on the way into each product are the identity at the ideal values, each product into the zero
  accumulator is a plain sum over the contracted coordinate, and each layout step (adding a leading unit axis to a bias,
  broadcasting its one row, dropping the trailing unit axis of the result) reads one entry of its operand. So entry r is
  `Energy.rowEnergy` of row r.
-/
import proofs.«116916_j31928786878751_1_alg».proof.Proof.Gen.KernelIdeal.Skeleton
import proofs.«116916_j31928786878751_1_alg».proof.Proof.Energy
import proofs.«116916_j31928786878751_1_alg».proof.Proof.LibMatmulPlain
import Idealize.ShloMosaic.Lib.ValueIdx
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.Energy Cert.LibMatmulPlain

/-! ## The three products are plain ones -/

theorem dot1_plain : dot_S1024x128_S128x1024_S1024x1024_1_0_0_1_n_n = DotDims.plain 1024 128 1024 := rfl
theorem dot2_plain : dot_S1024x1024_S1024x1024_S1024x1024_1_0_0_1_n_n = DotDims.plain 1024 1024 1024 := rfl
theorem dot3_plain : dot_S1024x1024_S1024x1_S1024x1_1_0_0_1_n_n = DotDims.plain 1024 1024 1 := rfl

/-- A product of a 1024×K block by a K×B matrix into the zero accumulator, plus a bias of B entries given a leading unit
    axis and broadcast over the rows: at (r, j) it is the affine form of row r of the block, column j of the matrix and
    entry j of the bias. -/
theorem affine_block {K B : Nat} (L : FVec Ideal ⟨2, ![1024, K]⟩ .bf16) (W : FVec Ideal ⟨2, ![K, B]⟩ .bf16)
    (b : FVec Ideal ⟨1, ![B]⟩ .f32) (h1 : (⟨1, ![B]⟩ : Shape).ShapeCasts ⟨2, ![1, B]⟩)
    (h2 : (⟨2, ![1, B]⟩ : Shape).Broadcasts ⟨2, ![1024, B]⟩) (r : Fin 1024) (j : Fin B) :
    addf (matmul (DotDims.plain 1024 K B) none L W (constant (F := Ideal) ⟨2, ![1024, B]⟩ .f32 0x00000000#32))
        (broadcastTo ⟨2, ![1024, B]⟩ (shapeCast ⟨2, ![1, B]⟩ b h1) h2) (ix2 r j)
      = affine (fun k => L (ix2 r k)) (fun k => W (ix2 k j)) (b (ix1 j)) := by
  rw [addf_apply, matmul_plain_zero_apply, broadcastTo_1b_ab_apply, shapeCast_a_1a_apply]
  rfl

/-! ## The body's stages, named -/

/-- The first pre-activation of the block: X0 · W1 + b1. -/
def pre1 (X0 : Vec Ideal S1024x128 .f32) (X1 : Vec Ideal S128x1024 .f32) (X2 : Vec Ideal S1024 .f32) : FVec Ideal S1024x1024 .f32 :=
  addf (matmul dot_S1024x128_S128x1024_S1024x1024_1_0_0_1_n_n none
      (truncf .bf16 (shapeCast S1024x128 X0 shapeCasts_S1024x128_S1024x128) bitsLt_bf16_f32) (truncf .bf16 X1 bitsLt_bf16_f32)
      (constant S1024x1024 .f32 0x00000000#32))
    (broadcastTo S1024x1024 (shapeCast S1x1024 X2 shapeCasts_S1024_S1x1024) broadcasts_S1x1024_S1024x1024)

/-- The activation of a pre-activation, as it enters the next product: P · logistic P. -/
def act (P : FVec Ideal S1024x1024 .f32) : FVec Ideal S1024x1024 .bf16 :=
  truncf .bf16 (mulf P (logistic P)) bitsLt_bf16_f32

/-- The second pre-activation: H · W2 + b2. -/
def pre2 (H : FVec Ideal S1024x1024 .bf16) (X3 : Vec Ideal S1024x1024 .f32) (X4 : Vec Ideal S1024 .f32) : FVec Ideal S1024x1024 .f32 :=
  addf (matmul dot_S1024x1024_S1024x1024_S1024x1024_1_0_0_1_n_n none H (truncf .bf16 X3 bitsLt_bf16_f32)
      (constant S1024x1024 .f32 0x00000000#32))
    (broadcastTo S1024x1024 (shapeCast S1x1024 X4 shapeCasts_S1024_S1x1024) broadcasts_S1x1024_S1024x1024)

/-- The stored vector: H · W3 + b3 with its trailing unit axis dropped. -/
def out3 (H : FVec Ideal S1024x1024 .bf16) (X5 : Vec Ideal S1024x1 .f32) (X6 : Vec Ideal S1 .f32) : FVec Ideal S1024 .f32 :=
  shapeCast S1024
    (addf (matmul dot_S1024x1024_S1024x1_S1024x1_1_0_0_1_n_n none H (truncf .bf16 X5 bitsLt_bf16_f32)
        (constant S1024x1 .f32 0x00000000#32))
      (broadcastTo S1024x1 (shapeCast S1x1 X6 shapeCasts_S1_S1x1) broadcasts_S1x1_S1024x1))
    shapeCasts_S1024x1_S1024

/-- The body's stored value is the composition of the stages. -/
theorem pay_eq (X0 : Vec Ideal S1024x128 .f32) (X1 : Vec Ideal S128x1024 .f32) (X2 : Vec Ideal S1024 .f32)
    (X3 : Vec Ideal S1024x1024 .f32) (X4 : Vec Ideal S1024 .f32) (X5 : Vec Ideal S1024x1 .f32) (X6 : Vec Ideal S1 .f32) :
    k0_pay1 (F := Ideal) X0 X1 X2 X3 X4 X5 X6 = out3 (act (pre2 (act (pre1 X0 X1 X2)) X3 X4)) X5 X6 := rfl

/-! ## Each stage at an index -/

theorem pre1_apply (X0 : Vec Ideal S1024x128 .f32) (X1 : Vec Ideal S128x1024 .f32) (X2 : Vec Ideal S1024 .f32)
    (r : Fin 1024) (j : Fin 1024) :
    pre1 X0 X1 X2 (ix2 r j) = affine (fun i => X0 (ix2 r i)) (fun i => X1 (ix2 i j)) (X2 (ix1 j)) := by
  unfold pre1
  rw [dot1_plain, shapeCast_self]
  exact affine_block _ _ _ _ _ r j

theorem act_apply (P : FVec Ideal S1024x1024 .f32) (i : S1024x1024.Idx) : act P i = silu (P i) := rfl

theorem pre2_apply (H : FVec Ideal S1024x1024 .bf16) (X3 : Vec Ideal S1024x1024 .f32) (X4 : Vec Ideal S1024 .f32)
    (r : Fin 1024) (k : Fin 1024) :
    pre2 H X3 X4 (ix2 r k) = affine (fun j => H (ix2 r j)) (fun j => X3 (ix2 j k)) (X4 (ix1 k)) := by
  unfold pre2
  rw [dot2_plain]
  exact affine_block _ _ _ _ _ r k

theorem out3_apply (H : FVec Ideal S1024x1024 .bf16) (X5 : Vec Ideal S1024x1 .f32) (X6 : Vec Ideal S1 .f32) (r : Fin 1024) :
    out3 H X5 X6 (ix1 r) = affine (fun k => H (ix2 r k)) (fun k => X5 (ix2 k (0 : Fin 1))) (X6 (ix1 (0 : Fin 1))) := by
  unfold out3
  rw [dot3_plain]
  refine (shapeCast_apply _ shapeCasts_S1024x1_S1024 (ix1 r) (ix2 r (0 : Fin 1)) (by
    rw [Shape.rowMajor_val_two, Shape.rowMajor_val_one]
    show r.val * 1 + 0 = r.val
    omega)).trans ?_
  exact affine_block _ _ _ _ _ r (0 : Fin 1)

/-- Entry r of the stored vector is the energy of row r of the block. -/
theorem pay_apply (X0 : Vec Ideal S1024x128 .f32) (X1 : Vec Ideal S128x1024 .f32) (X2 : Vec Ideal S1024 .f32)
    (X3 : Vec Ideal S1024x1024 .f32) (X4 : Vec Ideal S1024 .f32) (X5 : Vec Ideal S1024x1 .f32) (X6 : Vec Ideal S1 .f32)
    (r : Fin 1024) :
    k0_pay1 (F := Ideal) X0 X1 X2 X3 X4 X5 X6 (ix1 r)
      = rowEnergy (fun i => X0 (ix2 r i)) (fun i j => X1 (ix2 i j)) (fun j => X2 (ix1 j)) (fun j k => X3 (ix2 j k))
          (fun k => X4 (ix1 k)) (fun k => X5 (ix2 k (0 : Fin 1))) (X6 (ix1 (0 : Fin 1))) := by
  rw [pay_eq, out3_apply]
  unfold rowEnergy hidden2 hidden1
  simp only [act_apply, pre2_apply, pre1_apply]

end Cert.KernelIdeal.Row

end
-- ==== Proof.KernelBlocks.lean ====
/-
  From the grid steps to the whole energy vector.

  The grid has 128 steps. Step t reads rows 1024·t … 1024·t + 1023 of the 131072×128 feature matrix (the host's l = 0
  slice, reshaped) and the whole of every weight and bias array, and writes back entries 1024·t … 1024·t + 1023 of the
  131072-entry output. By `Row.pay_apply` entry r of what it writes is the energy of row r of its block, which is row
  1024·t + r of the matrix: every step writes its block of one and the same function `Energy.nodeEnergy` of the arrays.
  The 128 blocks cover the output (entry i lies in the block of step i / 1024), so the output array ends holding
  `nodeEnergy`.
-/
import proofs.«116916_j31928786878751_1_alg».proof.Proof.Gen.KernelIdeal.Frame
import proofs.«116916_j31928786878751_1_alg».proof.Proof.KernelRow
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Energy

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- The block index of every window at every step: the feature window and the output window are at block t, every
    weight and bias window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = t.val :=
  (by decide +kernel : ∀ t : Fin grid0.N, _)

/-- The node energies of the arrays as the region finds them. -/
abbrev G (c : Dev nD) : S131072.Idx → EReal :=
  nodeEnergy (V m c main_v1) (V m c main_arg1) (V m c main_arg2) (V m c main_arg3) (V m c main_arg4) (V m c main_arg5)
    (V m c main_arg6)

/-! ## Each window's block, read -/

/-- Row r of the feature block of step t is row 1024·t + r of the feature matrix. -/
theorem iblk0_apply (c : Dev nD) (t : Fin cfg0.N) (r : Fin 1024) (k : Fin 128) (n : Fin 131072)
    (hn : n.val = t.val * 1024 + r.val) :
    (iblk m c 0 t : Vec Ideal S1024x128 .f32) (ix2 r k) = (V m c main_v1 : S131072x128.Idx → EReal) (ix2 n k) := by
  obtain ⟨e0, e1, -⟩ := idx_facts t
  unfold iblk
  rw [View.read_apply]
  show (V m c main_v1 : S131072x128.Idx → EReal) _ = _
  refine congrArg (V m c main_v1 : S131072x128.Idx → EReal) (funext fun a => Fin.ext ?_)
  match a with
  | ⟨0, _⟩ => show win0_0.index t (0 : Fin 2) * 1024 + 1 * r.val = n.val; rw [e0, hn]; omega
  | ⟨1, _⟩ => show win0_0.index t (1 : Fin 2) * 128 + 1 * k.val = k.val; rw [e1]; omega

theorem iblk1_apply (c : Dev nD) (t : Fin cfg0.N) (i : Fin 128) (j : Fin 1024) :
    (iblk m c 1 t : Vec Ideal S128x1024 .f32) (ix2 i j) = (V m c main_arg1 : S128x1024.Idx → EReal) (ix2 i j) := by
  obtain ⟨-, -, e0, e1, -⟩ := idx_facts t
  unfold iblk
  rw [View.read_apply]
  show (V m c main_arg1 : S128x1024.Idx → EReal) _ = _
  refine congrArg (V m c main_arg1 : S128x1024.Idx → EReal) (funext fun a => Fin.ext ?_)
  match a with
  | ⟨0, _⟩ => show win0_1.index t (0 : Fin 2) * 128 + 1 * i.val = i.val; rw [e0]; omega
  | ⟨1, _⟩ => show win0_1.index t (1 : Fin 2) * 1024 + 1 * j.val = j.val; rw [e1]; omega

theorem iblk2_apply (c : Dev nD) (t : Fin cfg0.N) (j : Fin 1024) :
    (iblk m c 2 t : Vec Ideal S1024 .f32) (ix1 j) = (V m c main_arg2 : S1024.Idx → EReal) (ix1 j) := by
  obtain ⟨-, -, -, -, e0, -⟩ := idx_facts t
  unfold iblk
  rw [View.read_apply]
  show (V m c main_arg2 : S1024.Idx → EReal) _ = _
  refine congrArg (V m c main_arg2 : S1024.Idx → EReal) (funext fun a => Fin.ext ?_)
  match a with
  | ⟨0, _⟩ => show win0_2.index t (0 : Fin 1) * 1024 + 1 * j.val = j.val; rw [e0]; omega

theorem iblk3_apply (c : Dev nD) (t : Fin cfg0.N) (j : Fin 1024) (k : Fin 1024) :
    (iblk m c 3 t : Vec Ideal S1024x1024 .f32) (ix2 j k) = (V m c main_arg3 : S1024x1024.Idx → EReal) (ix2 j k) := by
  obtain ⟨-, -, -, -, -, e0, e1, -⟩ := idx_facts t
  unfold iblk
  rw [View.read_apply]
  show (V m c main_arg3 : S1024x1024.Idx → EReal) _ = _
  refine congrArg (V m c main_arg3 : S1024x1024.Idx → EReal) (funext fun a => Fin.ext ?_)
  match a with
  | ⟨0, _⟩ => show win0_3.index t (0 : Fin 2) * 1024 + 1 * j.val = j.val; rw [e0]; omega
  | ⟨1, _⟩ => show win0_3.index t (1 : Fin 2) * 1024 + 1 * k.val = k.val; rw [e1]; omega

theorem iblk4_apply (c : Dev nD) (t : Fin cfg0.N) (k : Fin 1024) :
    (iblk m c 4 t : Vec Ideal S1024 .f32) (ix1 k) = (V m c main_arg4 : S1024.Idx → EReal) (ix1 k) := by
  obtain ⟨-, -, -, -, -, -, -, e0, -⟩ := idx_facts t
  unfold iblk
  rw [View.read_apply]
  show (V m c main_arg4 : S1024.Idx → EReal) _ = _
  refine congrArg (V m c main_arg4 : S1024.Idx → EReal) (funext fun a => Fin.ext ?_)
  match a with
  | ⟨0, _⟩ => show win0_4.index t (0 : Fin 1) * 1024 + 1 * k.val = k.val; rw [e0]; omega

theorem iblk5_apply (c : Dev nD) (t : Fin cfg0.N) (k : Fin 1024) :
    (iblk m c 5 t : Vec Ideal S1024x1 .f32) (ix2 k (0 : Fin 1)) = (V m c main_arg5 : S1024x1.Idx → EReal) (ix2 k (0 : Fin 1)) := by
  obtain ⟨-, -, -, -, -, -, -, -, e0, e1, -⟩ := idx_facts t
  unfold iblk
  rw [View.read_apply]
  show (V m c main_arg5 : S1024x1.Idx → EReal) _ = _
  refine congrArg (V m c main_arg5 : S1024x1.Idx → EReal) (funext fun a => Fin.ext ?_)
  match a with
  | ⟨0, _⟩ => show win0_5.index t (0 : Fin 2) * 1024 + 1 * k.val = k.val; rw [e0]; omega
  | ⟨1, _⟩ => show win0_5.index t (1 : Fin 2) * 1 + 1 * 0 = 0; rw [e1]

theorem iblk6_apply (c : Dev nD) (t : Fin cfg0.N) :
    (iblk m c 6 t : Vec Ideal S1 .f32) (ix1 (0 : Fin 1)) = (V m c main_arg6 : S1.Idx → EReal) (ix1 (0 : Fin 1)) := by
  obtain ⟨-, -, -, -, -, -, -, -, -, -, e0, -⟩ := idx_facts t
  unfold iblk
  rw [View.read_apply]
  show (V m c main_arg6 : S1.Idx → EReal) _ = _
  refine congrArg (V m c main_arg6 : S1.Idx → EReal) (funext fun a => Fin.ext ?_)
  match a with
  | ⟨0, _⟩ => show win0_6.index t (0 : Fin 1) * 1 + 1 * 0 = 0; rw [e0]

/-- Entry r of the output block of step t is entry 1024·t + r of the output array. -/
theorem emb7 (t : Fin cfg0.N) (r : Fin 1024) (n : Fin 131072) (hn : n.val = t.val * 1024 + r.val) :
    ((cfg0.win 7).blk t).view.emb (ix1 r) = (ix1 n : S131072.Idx) := by
  obtain ⟨-, -, -, -, -, -, -, -, -, -, -, e0⟩ := idx_facts t
  refine funext fun a => Fin.ext ?_
  match a with
  | ⟨0, _⟩ => show win0_7.index t (0 : Fin 1) * 1024 + 1 * r.val = n.val; rw [e0, hn]; omega

/-! ## What a step writes back, the cover, the array after the run -/

/-- What step t writes back is its block of the node energies. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz1]
  simp only [View.ld_unit_zero (S := S1024x128) hz2, View.ld_unit_zero (S := S128x1024) hz2,
    View.ld_unit_zero (S := S1024) hz1, View.ld_unit_zero (S := S1024x1024) hz2, View.ld_unit_zero (S := S1024x1) hz2,
    View.ld_unit_zero (S := S1) hz1]
  refine funext fun (j : S1024.Idx) => ?_
  obtain ⟨r, rfl⟩ : ∃ r : Fin 1024, j = ix1 r := ⟨j 0, eq_ix1 j⟩
  have hN : cfg0.N = 128 := N_0
  have ht : t.val < 128 := lt_of_lt_of_eq t.isLt hN
  have hr : r.val < 1024 := r.isLt
  obtain ⟨n, hn⟩ : ∃ n : Fin 131072, n.val = t.val * 1024 + r.val := ⟨⟨t.val * 1024 + r.val, by omega⟩, rfl⟩
  rw [View.read_apply, emb7 t r n hn]
  refine (Row.pay_apply (iblk m c 0 t) (iblk m c 1 t) (iblk m c 2 t) (iblk m c 3 t) (iblk m c 4 t) (iblk m c 5 t)
    (iblk m c 6 t) r).trans ?_
  refine Eq.trans ?_ (nodeEnergy_apply (V m c main_v1) (V m c main_arg1) (V m c main_arg2) (V m c main_arg3)
    (V m c main_arg4) (V m c main_arg5) (V m c main_arg6) n).symm
  exact rowEnergy_congr (fun k => iblk0_apply m c t r k n hn) (fun i j => iblk1_apply m c t i j)
    (fun j => iblk2_apply m c t j) (fun j k => iblk3_apply m c t j k) (fun k => iblk4_apply m c t k)
    (fun k => iblk5_apply m c t k) (iblk6_apply m c t)

/-- An index of the output array is in step t's block iff it lies in the block's range. -/
theorem mem_blk7 (t : Fin cfg0.N) (i : S131072.Idx) :
    i ∈ ((cfg0.win 7).blk t).view.set ↔ ∀ a : Fin 1, win0_7.index t a * S1024.size a ≤ (i a).val
      ∧ (i a).val < win0_7.index t a * S1024.size a + S1024.size a := by
  show i ∈ ((View.whole main_v2).slice (win0_7.rect t)).set ↔ _
  rw [View.set_slice_whole, Rect.mem_set_unit]
  exact Iff.rfl

/-- Every entry of the output array lies in the block of step i / 1024, and every step writes back. -/
theorem cover7 (i : S131072.Idx) :
    ∃ t : Fin cfg0.N, (cfg0.win 7).flush t = true ∧ i ∈ ((cfg0.win 7).blk t).view.set := by
  have hi : (i 0).val < 131072 := (i 0).isLt
  have hN : cfg0.N = 128 := N_0
  let t : Fin cfg0.N := ⟨(i 0).val / 1024, lt_of_lt_of_eq (by omega : (i 0).val / 1024 < 128) hN.symm⟩
  have htv : t.val = (i 0).val / 1024 := rfl
  obtain ⟨-, -, -, -, -, -, -, -, -, -, -, e0⟩ := idx_facts t
  refine ⟨t, flush0_7 t, ?_⟩
  rw [mem_blk7]
  intro a
  match a with
  | ⟨0, _⟩ =>
    show win0_7.index t (0 : Fin 1) * 1024 ≤ (i 0).val ∧ (i 0).val < win0_7.index t (0 : Fin 1) * 1024 + 1024
    rw [e0, htv]
    omega

/-- The output array after the run: the node energies of the arrays as the region finds them. -/
theorem final7 (c : Dev nD) : (dats m 0 c).arrAt 7 cfg0.N = G m c :=
  (dats m 0 c).arrAt_eq_of_cover 7 (G m c) (fun t _ => flushed_eq m c t) cover7

end Cert.KernelIdeal.Blocks

end
-- ==== Proof.KernelRun.lean ====
/-
  The kernel's program, run: its result as one term of the argument arrays.

  Before the region the host slices the l = 0 coefficient out of the node embedding and reshapes it to the 131072×128
  feature matrix; the region leaves the node energies of that matrix in its output array (`Blocks.final7`); after the
  region the host adds each node's energy into the entry of its molecule (a scatter-add into 2048 zeros, at the indices
  of the batch array). The arguments end unchanged.
-/
import proofs.«116916_j31928786878751_1_alg».proof.Proof.Gen.KernelIdeal.Frame
import proofs.«116916_j31928786878751_1_alg».proof.Proof.KernelBlocks
import Idealize.ShloMosaic.Lib.StableHlo.Run
import Idealize.ShloMosaic.Lib.Pipeline.Value

noncomputable section

namespace Cert.KernelIdeal.Run

open Idealize.ShloMosaic Idealize.ShloMosaic.TcCoe Idealize.SL.Sem Idealize.ShloMosaic.StableHlo
open Idealize.ShloMosaic.Pipeline (Dat)
open Cert.KernelIdeal Cert.KernelIdeal.Gen Cert.Energy

variable (m : (ℓ : Loc nD τ sig) → Buf (Elt Ideal) ℓ) (ρ : Dev nD → PrngReg)

/-- The feature matrix the region finds: the l = 0 slice of the node embedding, reshaped. -/
theorem V_main_v1 (c : Dev nD) : (V m c main_v1 : S131072x128.Idx → EReal)
    = shapeCast S131072x128 (extractStridedSlice S131072x1x128 ![0, 0, 0] (m ((c : Thread nD τ).loc main_arg0))
        slices_S131072x9x128_S131072x1x128_0_0_0) shapeCasts_S131072x1x128_S131072x128 := by
  show StableHlo.after hostOps0 (fun b => m (c, b)) (Proc.devRef .tc main_v1) = _
  after_results
  rfl

/-- The program's result: the node energies of the sliced feature matrix, added per molecule. -/
def result (c : Dev nD) : Buf (Elt Ideal) ((c.tc : Thread nD τ).loc main_v5) :=
  Host.scatterAdd (F := Ideal) scatter_S2048_S131072x1_S131072_n_0_0_1
    (broadcastInDim S2048 ![] bcast_S_S2048 (constant (F := Ideal) S_ .f32 0x00000000#32))
    (broadcastInDim S131072x1 ![0] bcast_S131072_S131072x1_0 (m ((c.tc : Thread nD τ).loc main_arg7)))
    (nodeEnergy
      (shapeCast S131072x128 (extractStridedSlice S131072x1x128 ![0, 0, 0] (m ((c.tc : Thread nD τ).loc main_arg0))
        slices_S131072x9x128_S131072x1x128_0_0_0) shapeCasts_S131072x1x128_S131072x128)
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)))

/-- The region's output array in terms of the launch memory. -/
theorem energies_eq (c : Dev nD) : (dats m 0 c).arrAt 7 cfg0.N
    = nodeEnergy
      (shapeCast S131072x128 (extractStridedSlice S131072x1x128 ![0, 0, 0] (m ((c.tc : Thread nD τ).loc main_arg0))
        slices_S131072x9x128_S131072x1x128_0_0_0) shapeCasts_S131072x1x128_S131072x128)
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  rw [Blocks.final7]
  unfold Blocks.G
  rw [V_main_v1 m c, V_main_arg1 m c, V_main_arg2 m c, V_main_arg3 m c, V_main_arg4 m c, V_main_arg5 m c, V_main_arg6 m c]

/-- What the host lines after the region leave in the result buffer. -/
theorem tail_eq (c : Dev nD) : Pipeline.afterTail₀ cfgs (dats m) 0 (V0 m) [hostOps1] c main_v5 = result m c := by
  unfold Pipeline.afterTail₀
  show StableHlo.after hostOps1 _ (Proc.devRef .tc main_v5) = _
  after_results
  rw [Pipeline.withArrays_of_ne _ c (V0 m c) _ main_arg7 (by exact (by decide : ∀ w, Pipeline.arrRef spec0 w ≠ main_arg7))]
  rw [show Pipeline.withArrays (cfgs 0).spec c (V0 m c) (fun w => (dats m 0 c).arrAt w (cfgs 0).N) (Proc.devRef .tc main_v2)
      = (dats m 0 c).arrAt 7 cfg0.N from Pipeline.withArrays_arr spec0 launch0.win.arr_inj c _ _ 7]
  rw [energies_eq m c, show V0 m c (Proc.devRef .tc main_arg7) = m ((c.tc : Thread nD τ).loc main_arg7) from V_main_arg7 m c]
  rfl

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Run

end
-- ==== Proof.RefEnergy.lean ====
/-
  The reference's node energies, read row by row.

  The reference computes, for the whole 131072×128 feature matrix X (the l = 0 slice of the node embedding), the three
  layers as whole-matrix products with the biases broadcast over the rows, the sigmoid-weighted unit spelt
  z · (1 / (1 + e^(−z))), and drops the trailing unit axis. Read at node n this is `Energy.rowEnergy` of row n of X.
-/
import proofs.«116916_j31928786878751_1_alg».proof.Proof.Gen.ReferenceIdeal.Read
import proofs.«116916_j31928786878751_1_alg».proof.Proof.Energy
import Idealize.ShloMosaic.Lib.ValueIdx

noncomputable section

namespace Cert.ReferenceIdeal.RefEnergy

open Cert.ReferenceIdeal Cert.ReferenceIdeal.Read Idealize.ShloMosaic Idealize.ShloMosaic.ValueIdx Cert.Energy

abbrev A0 : Type := (⟨S131072x9x128, .f32⟩ : BufTy).Contents (Elt Ideal)
abbrev A1 : Type := (⟨S128x1024, .f32⟩ : BufTy).Contents (Elt Ideal)
abbrev A2 : Type := (⟨S1024, .f32⟩ : BufTy).Contents (Elt Ideal)
abbrev A3 : Type := (⟨S1024x1024, .f32⟩ : BufTy).Contents (Elt Ideal)
abbrev A5 : Type := (⟨S1024x1, .f32⟩ : BufTy).Contents (Elt Ideal)
abbrev A6 : Type := (⟨S1, .f32⟩ : BufTy).Contents (Elt Ideal)

/-! ## Where each product and each broadcast reads its operands -/

theorem l2 (n : Fin 131072) (j : Fin 1024) (k : Fin 128) : lidx_main_v2 (ix2 n j) k = ix2 n k :=
  funext fun a => Fin.ext (by match a with | ⟨0, _⟩ => rfl | ⟨1, _⟩ => rfl)
theorem r2 (n : Fin 131072) (j : Fin 1024) (k : Fin 128) : ridx_main_v2 (ix2 n j) k = ix2 k j :=
  funext fun a => Fin.ext (by match a with | ⟨0, _⟩ => rfl | ⟨1, _⟩ => rfl)
theorem b4 (n : Fin 131072) (j : Fin 1024) : idx_main_v3 (idx_main_v4 (ix2 n j)) = ix1 j :=
  funext fun a => Fin.ext (by match a with | ⟨0, _⟩ => rfl)
theorem l7 (n : Fin 131072) (k : Fin 1024) (j : Fin 1024) : lidx_main_v7 (ix2 n k) j = ix2 n j :=
  funext fun a => Fin.ext (by match a with | ⟨0, _⟩ => rfl | ⟨1, _⟩ => rfl)
theorem r7 (n : Fin 131072) (k : Fin 1024) (j : Fin 1024) : ridx_main_v7 (ix2 n k) j = ix2 j k :=
  funext fun a => Fin.ext (by match a with | ⟨0, _⟩ => rfl | ⟨1, _⟩ => rfl)
theorem b9 (n : Fin 131072) (k : Fin 1024) : idx_main_v8 (idx_main_v9 (ix2 n k)) = ix1 k :=
  funext fun a => Fin.ext (by match a with | ⟨0, _⟩ => rfl)
theorem l12 (n : Fin 131072) (k : Fin 1024) : lidx_main_v12 (idx_main_v16 (ix1 n)) k = ix2 n k :=
  funext fun a => Fin.ext (by match a with | ⟨0, _⟩ => exact Nat.div_one _ | ⟨1, _⟩ => rfl)
theorem r12 (n : Fin 131072) (k : Fin 1024) : ridx_main_v12 (idx_main_v16 (ix1 n)) k = ix2 k (0 : Fin 1) :=
  funext fun a => Fin.ext (by match a with | ⟨0, _⟩ => rfl | ⟨1, _⟩ => rfl)
theorem b14 (n : Fin 131072) : idx_main_v13 (idx_main_v14 (idx_main_v16 (ix1 n))) = ix1 (0 : Fin 1) :=
  funext fun a => Fin.ext (by match a with | ⟨0, _⟩ => rfl)

/-! ## The stages at an index -/

theorem pre1_apply (x0 : A0) (x1 : A1) (x2 : A2) (n : Fin 131072) (j : Fin 1024) :
    val_main_v5 (F := Ideal) x0 x1 x2 (ix2 n j)
      = affine (fun i => val_main_v1 (F := Ideal) x0 (ix2 n i)) (fun i => x1 (ix2 i j)) (x2 (ix1 j)) := by
  rw [val_main_v5_apply, val_main_v2_apply, val_main_v4_apply, val_main_v3_apply]
  simp only [l2, r2, b4]
  rfl

theorem act1_apply (x0 : A0) (x1 : A1) (x2 : A2) (i : S131072x1024.Idx) :
    val_main_v6 (F := Ideal) x0 x1 x2 i = silu (val_main_v5 (F := Ideal) x0 x1 x2 i) := by
  rw [val_main_v6_apply, val_main_call0_v5_apply, val_main_call0_v4_apply, val_main_call0_cst_0_apply,
    val_main_call0_v3_apply, val_main_call0_v2_apply, val_main_call0_cst_apply, val_main_call0_v1_apply,
    val_main_call0_v0_apply]
  exact silu_expanded _

theorem pre2_apply (x0 : A0) (x1 : A1) (x2 : A2) (x3 : A3) (x4 : A2) (n : Fin 131072) (k : Fin 1024) :
    val_main_v10 (F := Ideal) x0 x1 x2 x3 x4 (ix2 n k)
      = affine (fun j => val_main_v6 (F := Ideal) x0 x1 x2 (ix2 n j)) (fun j => x3 (ix2 j k)) (x4 (ix1 k)) := by
  rw [val_main_v10_apply, val_main_v7_apply, val_main_v9_apply, val_main_v8_apply]
  simp only [l7, r7, b9]
  rfl

theorem act2_apply (x0 : A0) (x1 : A1) (x2 : A2) (x3 : A3) (x4 : A2) (i : S131072x1024.Idx) :
    val_main_v11 (F := Ideal) x0 x1 x2 x3 x4 i = silu (val_main_v10 (F := Ideal) x0 x1 x2 x3 x4 i) := by
  rw [val_main_v11_apply, val_main_call1_v5_apply, val_main_call1_v4_apply, val_main_call1_cst_0_apply,
    val_main_call1_v3_apply, val_main_call1_v2_apply, val_main_call1_cst_apply, val_main_call1_v1_apply,
    val_main_call1_v0_apply]
  exact silu_expanded _

theorem out_apply (x0 : A0) (x1 : A1) (x2 : A2) (x3 : A3) (x4 : A2) (x5 : A5) (x6 : A6) (n : Fin 131072) :
    val_main_v16 (F := Ideal) x0 x1 x2 x3 x4 x5 x6 (ix1 n)
      = affine (fun k => val_main_v11 (F := Ideal) x0 x1 x2 x3 x4 (ix2 n k)) (fun k => x5 (ix2 k (0 : Fin 1)))
          (x6 (ix1 (0 : Fin 1))) := by
  rw [val_main_v16_apply, val_main_v15_apply, val_main_v12_apply, val_main_v14_apply, val_main_v13_apply]
  simp only [l12, r12, b14]
  rfl

/-- Node n's entry of the reference's energy vector is the energy of row n of the sliced feature matrix. -/
theorem energy_apply (x0 : A0) (x1 : A1) (x2 : A2) (x3 : A3) (x4 : A2) (x5 : A5) (x6 : A6) (n : Fin 131072) :
    val_main_v16 (F := Ideal) x0 x1 x2 x3 x4 x5 x6 (ix1 n)
      = rowEnergy (fun i => val_main_v1 (F := Ideal) x0 (ix2 n i)) (fun i j => x1 (ix2 i j)) (fun j => x2 (ix1 j))
          (fun j k => x3 (ix2 j k)) (fun k => x4 (ix1 k)) (fun k => x5 (ix2 k (0 : Fin 1))) (x6 (ix1 (0 : Fin 1))) := by
  rw [out_apply]
  unfold rowEnergy hidden2 hidden1
  simp only [act2_apply, pre2_apply, act1_apply, pre1_apply]

/-- The reference's energy vector is the node energies of the sliced feature matrix. -/
theorem energy_eq (x0 : A0) (x1 : A1) (x2 : A2) (x3 : A3) (x4 : A2) (x5 : A5) (x6 : A6) :
    val_main_v16 (F := Ideal) x0 x1 x2 x3 x4 x5 x6 = nodeEnergy (val_main_v1 (F := Ideal) x0) x1 x2 x3 x4 x5 x6 := by
  funext i
  obtain ⟨n, rfl⟩ : ∃ n : Fin 131072, i = ix1 n := ⟨i 0, eq_ix1 i⟩
  exact energy_apply x0 x1 x2 x3 x4 x5 x6 n

end Cert.ReferenceIdeal.RefEnergy

end
-- ==== Proof.lean ====
/-
  The kernel (a three-layer perceptron applied to the l = 0 feature row of every node, in 128 grid steps of 1024 rows, its
  node energies then added per molecule by the host) against the reference (the same perceptron as three whole-matrix
  products, the same per-molecule sum), at the ideal values.

  Per node both are one function, `Energy.rowEnergy`, of the node's feature row and the weights:
      h1 = silu(x · W1 + b1),  h2 = silu(h1 · W2 + b2),  E = h2 · W3 + b3,   silu z = z · 1 / (1 + e^(−z)).
  On the kernel's side the roundings to bf16 before each product are the identity at the ideal values, each product into
  a zero accumulator is a plain sum, and `tpu.logistic` is 1 / (1 + e^(−z)); on the reference's side the logistic
  function is spelt out as that same expression. The 128 blocks the grid steps write tile the energy vector, so the
  region's output array is the vector of node energies (`KernelIdeal.Blocks.final7`), and the reference's is too
  (`ReferenceIdeal.RefEnergy.energy_eq`). Both programs then apply the same scatter-add to it. No law of the extended
  reals beyond unfolding is needed, so the finiteness of the inputs is never used.

  The three frame claims are the generated frames (the reference's being its generated run with the result dropped), and
  the idealization rewrote nothing, so `preserves` is trivial.
-/
import proofs.«116916_j31928786878751_1_alg».proof.Defs
import proofs.«116916_j31928786878751_1_alg».proof.Proof.Gen.Kernel
import proofs.«116916_j31928786878751_1_alg».proof.Proof.Gen.Kernel.Skeleton
import proofs.«116916_j31928786878751_1_alg».proof.Proof.Gen.Kernel.Launch
import proofs.«116916_j31928786878751_1_alg».proof.Proof.Gen.Kernel.Points
import proofs.«116916_j31928786878751_1_alg».proof.Proof.Gen.Kernel.Frame
import proofs.«116916_j31928786878751_1_alg».proof.Proof.Gen.KernelIdeal
import proofs.«116916_j31928786878751_1_alg».proof.Proof.Gen.KernelIdeal.Skeleton
import proofs.«116916_j31928786878751_1_alg».proof.Proof.Gen.KernelIdeal.Launch
import proofs.«116916_j31928786878751_1_alg».proof.Proof.Gen.KernelIdeal.Points
import proofs.«116916_j31928786878751_1_alg».proof.Proof.Gen.KernelIdeal.Frame
import proofs.«116916_j31928786878751_1_alg».proof.Proof.Gen.ReferenceIdeal
import proofs.«116916_j31928786878751_1_alg».proof.Proof.Gen.Pre_finite_inputs
import proofs.«116916_j31928786878751_1_alg».proof.Proof.Gen.ReferenceIdeal.Run
import proofs.«116916_j31928786878751_1_alg».proof.Proof.Gen.ReferenceIdeal.Read
import proofs.«116916_j31928786878751_1_alg».proof.Proof.KernelRun
import proofs.«116916_j31928786878751_1_alg».proof.Proof.RefEnergy
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the per-molecule sums of the same node energies: the kernel's run leaves
    `KernelIdeal.Run.result`, and the reference's result term is the scatter-add of its energy vector, which is the node
    energies of the same sliced feature matrix once the arguments are identified. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq]
  unfold Cert.ReferenceIdeal.Read.val_main_v19
  rw [Cert.ReferenceIdeal.RefEnergy.energy_eq]
  obtain ⟨h0, h1, h2, h3, h4, h5, h6, h7, -⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
